-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1000000 32) (main_arg2 : IVec S1000000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩
abbrev S10000x128 : Shape := ⟨2, ![10000, 128]⟩

abbrev nBuf : Space → Nat
  | .hbm => 38
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x128, .f32⟩
  | .hbm, ⟨16, _⟩ => ⟨S_, .f32⟩
  | .hbm, ⟨17, _⟩ => ⟨S100000x128, .f32⟩
  | .hbm, ⟨18, _⟩ => ⟨S1000000x1, .i32⟩
  | .hbm, ⟨19, _⟩ => ⟨S100000x128, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S_, .f32⟩
  | .hbm, ⟨30, _⟩ => ⟨S100000x128, .f32⟩
  | .hbm, ⟨31, _⟩ => ⟨S1000000x1, .i32⟩
  | .hbm, ⟨32, _⟩ => ⟨S100000x128, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S1x128, .f32⟩
  | .hbm, ⟨37, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x128, .f32⟩
  | .hbm, ⟨16, _⟩ => ⟨S_, .f32⟩
  | .hbm, ⟨17, _⟩ => ⟨S100000x128, .f32⟩
  | .hbm, ⟨18, _⟩ => ⟨S1000000x1, .i32⟩
  | .hbm, ⟨19, _⟩ => ⟨S100000x128, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S_, .f32⟩
  | .hbm, ⟨30, _⟩ => ⟨S100000x128, .f32⟩
  | .hbm, ⟨31, _⟩ => ⟨S1000000x1, .i32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Combine.lean ====
/-
  The function both programs compute, stated once over literal shapes and with no program in sight.

  Two arrays of aggregated node features `A`, `B` (100000 nodes, 128 features each), two square weight matrices
  `Wa`, `Wb` (128 × 128, used as a torch `Linear` uses them: row `j` of the matrix produces output feature `j`),
  two bias vectors `ba`, `bb`. The output at node `r`, feature `j` is the even mixture of the two affine maps:

      ½ · ( Σₖ A[r,k] · Wa[j,k] + ba[j] )  +  ½ · ( Σₖ B[r,k] · Wb[j,k] + bb[j] )

  over the extended reals, `½` being the exact value of the binary32 word `0x3F000000`, which is never evaluated here:
  the same word stands on both sides of every equation it appears in.
-/
import Idealize.ShloMosaic.PureOps.Ideal
import Idealize.ShloMosaic.Lib.ValueIdx

noncomputable section

namespace Cert.Combine

open Idealize.ShloMosaic Idealize.ShloMosaic.ValueIdx

/-- The mixing weight, as the binary32 word both programs spell. -/
abbrev half : EReal := Ideal.ofBits .f32 0x3F000000#32

/-- One affine map at node `r`, output feature `j`: the row `r` of `A` against row `j` of `W`, plus `b j`. -/
def affine (A : (⟨2, ![100000, 128]⟩ : Shape).Idx → EReal) (W : (⟨2, ![128, 128]⟩ : Shape).Idx → EReal)
    (b : (⟨1, ![128]⟩ : Shape).Idx → EReal) (r : Fin 100000) (j : Fin 128) : EReal :=
  (∑ k : Fin 128, A (ix2 r k) * W (ix2 j k)) + b (ix1 j)

/-- The even mixture of the two affine maps, index by index. -/
def combine (A B : (⟨2, ![100000, 128]⟩ : Shape).Idx → EReal) (Wa Wb : (⟨2, ![128, 128]⟩ : Shape).Idx → EReal)
    (ba bb : (⟨1, ![128]⟩ : Shape).Idx → EReal) : (⟨2, ![100000, 128]⟩ : Shape).Idx → EReal :=
  fun i => half * affine A Wa ba (i 0) (i 1) + half * affine B Wb bb (i 0) (i 1)

theorem combine_apply (A B : (⟨2, ![100000, 128]⟩ : Shape).Idx → EReal) (Wa Wb : (⟨2, ![128, 128]⟩ : Shape).Idx → EReal)
    (ba bb : (⟨1, ![128]⟩ : Shape).Idx → EReal) (r : Fin 100000) (j : Fin 128) :
    combine A B Wa Wb ba bb (ix2 r j) = half * affine A Wa ba r j + half * affine B Wb bb r j := rfl

/-- A BLOCK OF ROWS of the mixture. Let `a`, `b` hold 10000 rows of `A`, `B` (row `p` of the block being row `row p` of the
    array), `wa`, `wb` the weights TRANSPOSED, and `ra`, `rb` the biases as a single row. Then the block-level expression
    at `(p, q)` — products against COLUMN `q` of the transposed weights, plus the bias row at `q` — is the mixture at
    `(row p, q)`: transposing twice is nothing, and no law of arithmetic is used. -/
theorem block_rows (A B : (⟨2, ![100000, 128]⟩ : Shape).Idx → EReal) (Wa Wb : (⟨2, ![128, 128]⟩ : Shape).Idx → EReal)
    (ba bb : (⟨1, ![128]⟩ : Shape).Idx → EReal)
    (a b : (⟨2, ![10000, 128]⟩ : Shape).Idx → EReal) (wa wb : (⟨2, ![128, 128]⟩ : Shape).Idx → EReal)
    (ra rb : (⟨2, ![1, 128]⟩ : Shape).Idx → EReal) (row : Fin 10000 → Fin 100000)
    (ha : ∀ p k, a (ix2 p k) = A (ix2 (row p) k)) (hb : ∀ p k, b (ix2 p k) = B (ix2 (row p) k))
    (hwa : ∀ k q, wa (ix2 k q) = Wa (ix2 q k)) (hwb : ∀ k q, wb (ix2 k q) = Wb (ix2 q k))
    (hra : ∀ q, ra (ix2 (0 : Fin 1) q) = ba (ix1 q)) (hrb : ∀ q, rb (ix2 (0 : Fin 1) q) = bb (ix1 q))
    (p : Fin 10000) (q : Fin 128) :
    half * ((∑ k : Fin 128, a (ix2 p k) * wa (ix2 k q)) + ra (ix2 (0 : Fin 1) q))
        + half * ((∑ k : Fin 128, b (ix2 p k) * wb (ix2 k q)) + rb (ix2 (0 : Fin 1) q))
      = combine A B Wa Wb ba bb (ix2 (row p) q) := by
  rw [combine_apply]
  unfold affine
  simp only [ha, hb, hwa, hwb, hra, hrb]

end Cert.Combine

end
-- ==== Proof.RefCombine.lean ====
/-
  The reference's last stage is `combine` of its own two aggregates.

  Reading the reference's result at node `r`, feature `j`, one operation at a time: the final sum of two products by
  the word `½`; each factor a whole-array `dot_general` plus a bias row; the `dot_general` at `(r, j)` the sum over `k`
  of the aggregate at `(r, k)` times the TRANSPOSED weight at `(k, j)`, that is the weight itself at `(j, k)`; the bias row
  at `(r, j)` the bias vector at `j`. The two aggregates (a gather followed by a scatter-add) are never opened: they
  enter as the stages `val_main_v9` and `val_main_v19`.
-/
import proofs.«169722_j9534827397139_1_alg».proof.Proof.Gen.ReferenceIdeal.Read
import proofs.«169722_j9534827397139_1_alg».proof.Proof.Combine

noncomputable section

namespace Cert.ReferenceIdeal.RefValue

open Cert.ReferenceIdeal Cert.ReferenceIdeal.Read Idealize.ShloMosaic Idealize.ShloMosaic.ValueIdx Cert.Combine

/-- Row `r` of the left operand, column `k`. -/
theorem lidx21 (r : Fin 100000) (j k : Fin 128) : lidx_main_v21 (ix2 r j) k = ix2 r k :=
  funext fun a => by match a with | ⟨0, _⟩ => rfl | ⟨1, _⟩ => rfl
theorem lidx26 (r : Fin 100000) (j k : Fin 128) : lidx_main_v26 (ix2 r j) k = ix2 r k :=
  funext fun a => by match a with | ⟨0, _⟩ => rfl | ⟨1, _⟩ => rfl
/-- The transposed weight at `(k, j)` is the weight at `(j, k)`. -/
theorem widx21 (r : Fin 100000) (j k : Fin 128) : idx_main_v20 (ridx_main_v21 (ix2 r j) k) = ix2 j k :=
  funext fun a => by match a with | ⟨0, _⟩ => rfl | ⟨1, _⟩ => rfl
theorem widx26 (r : Fin 100000) (j k : Fin 128) : idx_main_v25 (ridx_main_v26 (ix2 r j) k) = ix2 j k :=
  funext fun a => by match a with | ⟨0, _⟩ => rfl | ⟨1, _⟩ => rfl
/-- The bias row at `(r, j)` is the bias vector at `j`. -/
theorem bidx23 (r : Fin 100000) (j : Fin 128) : idx_main_v22 (idx_main_v23 (ix2 r j)) = ix1 j :=
  funext fun a => by match a with | ⟨0, _⟩ => rfl
theorem bidx28 (r : Fin 100000) (j : Fin 128) : idx_main_v27 (idx_main_v28 (ix2 r j)) = ix1 j :=
  funext fun a => by match a with | ⟨0, _⟩ => rfl

theorem result_is_combine (x0 : (⟨S100000x128, .f32⟩ : BufTy).Contents (Elt Ideal)) (x1 x2 : (⟨S1000000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v34 (F := Ideal) x0 x1 x2 x3 x4 x5 x6
      = combine (val_main_v9 (F := Ideal) x0 x1 x2) (val_main_v19 (F := Ideal) x0 x1 x2) x3 x5 x4 x6 := by
  funext i
  obtain ⟨r, j, rfl⟩ : ∃ (r : Fin 100000) (j : Fin 128), i = ix2 r j := ⟨i 0, i 1, eq_ix2 i⟩
  rw [combine_apply]
  rw [val_main_v34_apply, val_main_v31_apply, val_main_v33_apply, val_main_v30_apply, val_main_v32_apply,
    val_main_cst_4_apply, val_main_cst_5_apply, val_main_v24_apply, val_main_v29_apply, val_main_v21_apply,
    val_main_v26_apply, val_main_v23_apply, val_main_v28_apply, val_main_v22_apply, val_main_v27_apply]
  simp only [val_main_v20_apply, val_main_v25_apply, lidx21, lidx26, widx21, widx26, bidx23, bidx28]
  rfl

end Cert.ReferenceIdeal.RefValue

end
-- ==== Proof.BodyCombine.lean ====
/-
  What the kernel's body stores, read at one entry of the block.

  At a grid point the body holds a block of 10000 rows of each aggregate, both weight matrices already transposed
  (`[k, j]`), and both biases as a single row. It stores, at row `p`, feature `q` of the block,

      ½ · ( Σₖ a[p,k] · wa[k,q] + ba[0,q] )  +  ½ · ( Σₖ b[p,k] · wb[k,q] + bb[0,q] ) :

  each matrix product accumulates into a zero block, so at an entry it is the plain sum over the contracted axis;
  the bias row is repeated down the block; the shape casts change nothing.
-/
import proofs.«169722_j9534827397139_1_alg».proof.Proof.Gen.KernelIdeal.Skeleton
import proofs.«169722_j9534827397139_1_alg».proof.Proof.Combine
import Idealize.ShloMosaic.PureOps.Ideal.Laws
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.Combine

/-! ## The block product at an entry -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of rows times a `[k, j]` matrix, accumulated into zero, at `(p, q)`: row `p` against column `q`. -/
theorem block_product (x : FVec Ideal S10000x128 .f32) (w : FVec Ideal S128x128 .f32) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_contr _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The stored value at an entry -/

theorem stored_apply (a b : Vec Ideal S10000x128 .f32) (wa wb : Vec Ideal S128x128 .f32) (ba bb : Vec Ideal S1x128 .f32)
    (p : Fin 10000) (q : Fin 128) :
    k0_pay1 (F := Ideal) a wa ba b wb bb (ix2 p q)
      = half * ((∑ k : Fin 128, a (ix2 p k) * wa (ix2 k q)) + ba (ix2 (0 : Fin 1) q))
        + half * ((∑ k : Fin 128, b (ix2 p k) * wb (ix2 k q)) + bb (ix2 (0 : Fin 1) q)) := by
  unfold k0_pay1
  simp only [shapeCast_self]
  simp only [addf_apply, mulf_apply, broadcast_apply]
  rw [block_product, block_product, broadcastTo_1b_ab_apply, broadcastTo_1b_ab_apply]
  rfl

end Cert.KernelIdeal.Body

end
-- ==== Proof.Entry.lean ====
/-
  What the region finds in the two aggregate arrays when it is entered.

  Before the region the host computes the two aggregates: a gather of rows of the features at one end of every edge,
  scatter-added into zeros at the other end, once in each direction. These are the very terms the reference computes for
  its own two aggregates, operation for operation, so each is identified with the reference's stage and kept whole: what
  a gather or a scatter-add does is never needed.
-/
import proofs.«169722_j9534827397139_1_alg».proof.Proof.Gen.KernelIdeal.Frame
import proofs.«169722_j9534827397139_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The source-to-destination aggregate: features gathered at the sources, summed at the destinations. -/
theorem agg_sd (c : Dev nD) :
    (V m c main_v9 : S100000x128.Idx → EReal)
      = Cert.ReferenceIdeal.Read.val_main_v9 (F := Ideal) (m ((c : Thread nD τ).loc main_arg0)) (m ((c : Thread nD τ).loc main_arg1)) (m ((c : Thread nD τ).loc main_arg2)) := by
  dsimp only [Gen.V, Gen.hostOps0]
  after_results
  rfl

set_option maxHeartbeats 1000000 in
/-- The destination-to-source aggregate: features gathered at the destinations, summed at the sources. -/
theorem agg_ds (c : Dev nD) :
    (V m c main_v19 : S100000x128.Idx → EReal)
      = Cert.ReferenceIdeal.Read.val_main_v19 (F := Ideal) (m ((c : Thread nD τ).loc main_arg0)) (m ((c : Thread nD τ).loc main_arg1)) (m ((c : Thread nD τ).loc main_arg2)) := by
  dsimp only [Gen.V, Gen.hostOps0]
  after_results
  rfl

end Cert.KernelIdeal.Entry

end
-- ==== Proof.EntryLayout.lean ====
/-
  What the region finds in the weight and bias arrays when it is entered, read at an index.

  The host transposes each weight matrix, so the array the region reads holds, at `(k, j)`, the weight at `(j, k)`; and it
  views each bias vector as a single row, which holds, at `(0, j)`, the bias at `j`.
-/
import proofs.«169722_j9534827397139_1_alg».proof.Proof.Gen.KernelIdeal.Frame
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The first weight matrix, transposed. -/
theorem weight_sd (c : Dev nD) (k j : Fin 128) :
    (V m c main_v20 : S128x128.Idx → EReal) (ix2 k j) = m ((c : Thread nD τ).loc main_arg3) (ix2 j k) := by
  have e : (V m c main_v20 : S128x128.Idx → EReal)
      = transpose S128x128 [1, 0] (m ((c : Thread nD τ).loc main_arg3)) transposes_S128x128_S128x128_1_0 := by
    dsimp only [Gen.V, Gen.hostOps0]
    after_results
  rw [e]
  exact transpose_ix2_apply _ _ k j

/-- The second weight matrix, transposed. -/
theorem weight_ds (c : Dev nD) (k j : Fin 128) :
    (V m c main_v21 : S128x128.Idx → EReal) (ix2 k j) = m ((c : Thread nD τ).loc main_arg5) (ix2 j k) := by
  have e : (V m c main_v21 : S128x128.Idx → EReal)
      = transpose S128x128 [1, 0] (m ((c : Thread nD τ).loc main_arg5)) transposes_S128x128_S128x128_1_0 := by
    dsimp only [Gen.V, Gen.hostOps0]
    after_results
  rw [e]
  exact transpose_ix2_apply _ _ k j

/-- The first bias vector, as one row. -/
theorem bias_sd (c : Dev nD) (u : Fin 1) (j : Fin 128) :
    (V m c main_v22 : S1x128.Idx → EReal) (ix2 u j) = m ((c : Thread nD τ).loc main_arg4) (ix1 j) := by
  have e : (V m c main_v22 : S1x128.Idx → EReal)
      = shapeCast S1x128 (m ((c : Thread nD τ).loc main_arg4)) shapeCasts_S128_S1x128 := by
    dsimp only [Gen.V, Gen.hostOps0]
    after_results
    rfl
  rw [e]
  exact shapeCast_a_1a_apply _ _ u j

/-- The second bias vector, as one row. -/
theorem bias_ds (c : Dev nD) (u : Fin 1) (j : Fin 128) :
    (V m c main_v23 : S1x128.Idx → EReal) (ix2 u j) = m ((c : Thread nD τ).loc main_arg6) (ix1 j) := by
  have e : (V m c main_v23 : S1x128.Idx → EReal)
      = shapeCast S1x128 (m ((c : Thread nD τ).loc main_arg6)) shapeCasts_S128_S1x128 := by
    dsimp only [Gen.V, Gen.hostOps0]
    after_results
    rfl
  rw [e]
  exact shapeCast_a_1a_apply _ _ u j

end Cert.KernelIdeal.Entry

end
-- ==== Proof.BlockReads.lean ====
/-
  Where each window's block sits in its array, at a symbolic grid point.

  The grid has ten points. At point `t` the two aggregate windows and the output window hold rows
  `10000·t … 10000·t + 9999`; the weight and bias windows hold their whole arrays at every point. Each fact is about the
  window's geometry only, so it is stated for an ARBITRARY array of the window's shape: reading entry `(p, k)` of the block
  is reading the array at the corresponding entry.
-/
import proofs.«169722_j9534827397139_1_alg».proof.Proof.Gen.KernelIdeal.Frame
import Idealize.ShloMosaic.Lib.ValueIdx

noncomputable section

namespace Cert.KernelIdeal.Whole

open Cert.KernelIdeal Cert.KernelIdeal.Gen Idealize.ShloMosaic Idealize.ShloMosaic.TcCoe Idealize.ShloMosaic.ValueIdx Idealize.SL.Sem

/-- The printed index maps, decided over the ten points: the aggregates' and the output's blocks move down the rows with
    the point; the weights' and biases' blocks stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `10000·t + p` of the array. -/
def rowOf (t : Fin cfg0.N) (p : Fin 10000) : Fin 100000 :=
  ⟨t.val * 10000 + p.val, by have ht : t.val < 10 := N_0 ▸ t.isLt; have hp := p.isLt; omega⟩

/-- The first aggregate's window: entry `(p, k)` of the block at `t` is entry `(10000·t + p, k)` of the array. -/
theorem read_rows_sd (X : S100000x128.Idx → EReal) (t : Fin cfg0.N) (p : Fin 10000) (k : Fin 128) :
    ((cfg0.win 0).blk t).view.read (Elt Ideal) X (ix2 p k) = X (ix2 (rowOf t p) k) := by
  obtain ⟨a0, a1, -⟩ := index_maps t
  show X (((cfg0.win 0).blk t).view.emb (ix2 p k)) = X (ix2 (rowOf t p) k)
  refine congrArg X (funext fun a => Fin.ext ?_)
  match a with
  | ⟨0, _⟩ => show win0_0.index t (0 : Fin 2) * 10000 + 1 * p.val = t.val * 10000 + p.val; rw [a0]; omega
  | ⟨1, _⟩ => show win0_0.index t (1 : Fin 2) * 128 + 1 * k.val = k.val; rw [a1]; omega

/-- The second aggregate's window, likewise. -/
theorem read_rows_ds (X : S100000x128.Idx → EReal) (t : Fin cfg0.N) (p : Fin 10000) (k : Fin 128) :
    ((cfg0.win 1).blk t).view.read (Elt Ideal) X (ix2 p k) = X (ix2 (rowOf t p) k) := by
  obtain ⟨-, -, a0, a1, -⟩ := index_maps t
  show X (((cfg0.win 1).blk t).view.emb (ix2 p k)) = X (ix2 (rowOf t p) k)
  refine congrArg X (funext fun a => Fin.ext ?_)
  match a with
  | ⟨0, _⟩ => show win0_1.index t (0 : Fin 2) * 10000 + 1 * p.val = t.val * 10000 + p.val; rw [a0]; omega
  | ⟨1, _⟩ => show win0_1.index t (1 : Fin 2) * 128 + 1 * k.val = k.val; rw [a1]; omega

/-- The first weights' window holds the whole matrix at every point. -/
theorem read_whole_sd (X : S128x128.Idx → EReal) (t : Fin cfg0.N) (k j : Fin 128) :
    ((cfg0.win 2).blk t).view.read (Elt Ideal) X (ix2 k j) = X (ix2 k j) := by
  obtain ⟨-, -, -, -, a0, a1, -⟩ := index_maps t
  show X (((cfg0.win 2).blk t).view.emb (ix2 k j)) = X (ix2 k j)
  refine congrArg X (funext fun a => Fin.ext ?_)
  match a with
  | ⟨0, _⟩ => show win0_2.index t (0 : Fin 2) * 128 + 1 * k.val = k.val; rw [a0]; omega
  | ⟨1, _⟩ => show win0_2.index t (1 : Fin 2) * 128 + 1 * j.val = j.val; rw [a1]; omega

/-- The second weights' window, likewise. -/
theorem read_whole_ds (X : S128x128.Idx → EReal) (t : Fin cfg0.N) (k j : Fin 128) :
    ((cfg0.win 4).blk t).view.read (Elt Ideal) X (ix2 k j) = X (ix2 k j) := by
  obtain ⟨-, -, -, -, -, -, -, -, a0, a1, -⟩ := index_maps t
  show X (((cfg0.win 4).blk t).view.emb (ix2 k j)) = X (ix2 k j)
  refine congrArg X (funext fun a => Fin.ext ?_)
  match a with
  | ⟨0, _⟩ => show win0_4.index t (0 : Fin 2) * 128 + 1 * k.val = k.val; rw [a0]; omega
  | ⟨1, _⟩ => show win0_4.index t (1 : Fin 2) * 128 + 1 * j.val = j.val; rw [a1]; omega

/-- The first bias row's window holds the whole row at every point. -/
theorem read_row_sd (X : S1x128.Idx → EReal) (t : Fin cfg0.N) (j : Fin 128) :
    ((cfg0.win 3).blk t).view.read (Elt Ideal) X (ix2 (0 : Fin 1) j) = X (ix2 (0 : Fin 1) j) := by
  obtain ⟨-, -, -, -, -, -, a0, a1, -⟩ := index_maps t
  show X (((cfg0.win 3).blk t).view.emb (ix2 (0 : Fin 1) j)) = X (ix2 (0 : Fin 1) j)
  refine congrArg X (funext fun a => Fin.ext ?_)
  match a with
  | ⟨0, _⟩ => show win0_3.index t (0 : Fin 2) * 1 + 1 * 0 = 0; rw [a0]
  | ⟨1, _⟩ => show win0_3.index t (1 : Fin 2) * 128 + 1 * j.val = j.val; rw [a1]; omega

/-- The second bias row's window, likewise. -/
theorem read_row_ds (X : S1x128.Idx → EReal) (t : Fin cfg0.N) (j : Fin 128) :
    ((cfg0.win 5).blk t).view.read (Elt Ideal) X (ix2 (0 : Fin 1) j) = X (ix2 (0 : Fin 1) j) := by
  obtain ⟨-, -, -, -, -, -, -, -, -, -, a0, a1, -⟩ := index_maps t
  show X (((cfg0.win 5).blk t).view.emb (ix2 (0 : Fin 1) j)) = X (ix2 (0 : Fin 1) j)
  refine congrArg X (funext fun a => Fin.ext ?_)
  match a with
  | ⟨0, _⟩ => show win0_5.index t (0 : Fin 2) * 1 + 1 * 0 = 0; rw [a0]
  | ⟨1, _⟩ => show win0_5.index t (1 : Fin 2) * 128 + 1 * j.val = j.val; rw [a1]; omega

/-- The output's window: entry `(p, q)` of the block at `t` is entry `(10000·t + p, q)` of the array. -/
theorem out_entry (t : Fin cfg0.N) (p : Fin 10000) (q : Fin 128) :
    ((cfg0.win 6).blk t).view.emb (ix2 p q) = ix2 (rowOf t p) q := by
  obtain ⟨-, -, -, -, -, -, -, -, -, -, -, -, a0, a1⟩ := index_maps t
  refine funext fun a => Fin.ext ?_
  match a with
  | ⟨0, _⟩ => show win0_6.index t (0 : Fin 2) * 10000 + 1 * p.val = t.val * 10000 + p.val; rw [a0]; omega
  | ⟨1, _⟩ => show win0_6.index t (1 : Fin 2) * 128 + 1 * q.val = q.val; rw [a1]; omega

/-- Reading ANY array of the output's shape through the output window's block at `t`. -/
theorem read_out (X : S100000x128.Idx → EReal) (t : Fin cfg0.N) (p : Fin 10000) (q : Fin 128) :
    ((cfg0.win 6).blk t).view.read (Elt Ideal) X (ix2 p q) = X (ix2 (rowOf t p) q) :=
  congrArg X (out_entry t p q)

end Cert.KernelIdeal.Whole

end
-- ==== Proof.Blocks.lean ====
/-
  From the blocks to the whole array.

  What point `t` writes back is rows `10000·t … 10000·t + 9999` of ONE array, `result`: the mixture `combine` of the two
  aggregates the region finds, with the weights and biases as launched — the body's stored value at an entry of the block
  (a sum against a column of the transposed weights, plus the bias row, mixed) is the mixture at the corresponding entry of
  the array. The ten blocks fill the output (row `r` lies in block `r / 10000`), so after the run the output array IS
  `result`.
-/
import proofs.«169722_j9534827397139_1_alg».proof.Proof.Gen.KernelIdeal.Value
import proofs.«169722_j9534827397139_1_alg».proof.Proof.Combine
import proofs.«169722_j9534827397139_1_alg».proof.Proof.BodyCombine
import proofs.«169722_j9534827397139_1_alg».proof.Proof.Entry
import proofs.«169722_j9534827397139_1_alg».proof.Proof.EntryLayout
import proofs.«169722_j9534827397139_1_alg».proof.Proof.BlockReads

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)
open Cert.Combine

variable (m : (ℓ : Loc nD τ sig) → Buf (Elt Ideal) ℓ) (ρ : Dev nD → PrngReg)

theorem zero_offsets : (![0, 0] : Fin 2 → Nat) = fun _ => 0 := funext fun a => by fin_cases a <;> rfl

/-- The output array: the even mixture of the two affine maps of the aggregates the region finds, with the weights and
    biases as launched. -/
def result (c : Dev nD) : S100000x128.Idx → EReal :=
  combine (V m c main_v9) (V m c main_v19) (m ((c : Thread nD τ).loc main_arg3)) (m ((c : Thread nD τ).loc main_arg5))
    (m ((c : Thread nD τ).loc main_arg4)) (m ((c : Thread nD τ).loc main_arg6))

/-- WHAT POINT `t` WRITES BACK is block `t` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S10000x128) zero_offsets, View.ld_unit_zero (S := S128x128) zero_offsets,
    View.ld_unit_zero (S := S1x128) zero_offsets]
  funext y
  obtain ⟨p, q, rfl⟩ : ∃ (p : Fin 10000) (q : Fin 128), y = ix2 p q := ⟨y 0, y 1, eq_ix2 y⟩
  refine Eq.trans ?_ (read_out (result m c) t p q).symm
  refine (Body.stored_apply (iblk m c 0 t) (iblk m c 1 t) (iblk m c 2 t) (iblk m c 4 t) (iblk m c 3 t) (iblk m c 5 t) p q).trans ?_
  exact block_rows (V m c main_v9) (V m c main_v19) (m ((c : Thread nD τ).loc main_arg3)) (m ((c : Thread nD τ).loc main_arg5))
    (m ((c : Thread nD τ).loc main_arg4)) (m ((c : Thread nD τ).loc main_arg6))
    (iblk m c 0 t) (iblk m c 1 t) (iblk m c 2 t) (iblk m c 4 t) (iblk m c 3 t) (iblk m c 5 t) (rowOf t)
    (fun p k => read_rows_sd (V m c main_v9) t p k)
    (fun p k => read_rows_ds (V m c main_v19) t p k)
    (fun k j => (read_whole_sd (V m c main_v20) t k j).trans (Entry.weight_sd m c k j))
    (fun k j => (read_whole_ds (V m c main_v21) t k j).trans (Entry.weight_ds m c k j))
    (fun j => (read_row_sd (V m c main_v22) t j).trans (Entry.bias_sd m c 0 j))
    (fun j => (read_row_ds (V m c main_v23) t j).trans (Entry.bias_ds m c 0 j))
    p q

/-- An index of the output array is in point `t`'s block iff each coordinate is in the block's range on its axis. -/
theorem mem_block (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v24).slice (win0_6.rect t)).set ↔ _
  rw [View.set_slice_whole, Rect.mem_set_unit]
  exact Iff.rfl

/-- THE BLOCKS FILL THE OUTPUT: row `r` lies in the block of point `r / 10000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_6 _, ?_⟩
  obtain ⟨-, -, -, -, -, -, -, -, -, -, -, -, a60, a61⟩ := index_maps ⟨(i 0).val / 10000, by rw [hN]; omega⟩
  rw [mem_block]
  intro a
  match a with
  | ⟨0, _⟩ =>
    show win0_6.index _ (0 : Fin 2) * 10000 ≤ (i 0).val ∧ (i 0).val < win0_6.index _ (0 : Fin 2) * 10000 + 10000
    rw [a60]
    show (i 0).val / 10000 * 10000 ≤ (i 0).val ∧ (i 0).val < (i 0).val / 10000 * 10000 + 10000
    omega
  | ⟨1, _⟩ =>
    show win0_6.index _ (1 : Fin 2) * 128 ≤ (i 1).val ∧ (i 1).val < win0_6.index _ (1 : Fin 2) * 128 + 128
    rw [a61]
    omega

/-- THE OUTPUT ARRAY after the run is `result`. -/
theorem final (c : Dev nD) : (dats m 0 c).arrAt 6 cfg0.N = result m c :=
  (dats m 0 c).arrAt_eq_of_cover 6 (result m c) (fun t _ => flushed_eq m c t) cover

/-- The kernel's run: every weakly fair execution ends with the output array at `result` and the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

/-- `result` in the reference's own words: the mixture of the reference's two aggregate stages. -/
theorem result_eq (c : Dev nD) :
    result m c = combine
      (Cert.ReferenceIdeal.Read.val_main_v9 (F := Ideal) (m ((c : Thread nD τ).loc main_arg0)) (m ((c : Thread nD τ).loc main_arg1)) (m ((c : Thread nD τ).loc main_arg2)))
      (Cert.ReferenceIdeal.Read.val_main_v19 (F := Ideal) (m ((c : Thread nD τ).loc main_arg0)) (m ((c : Thread nD τ).loc main_arg1)) (m ((c : Thread nD τ).loc main_arg2)))
      (m ((c : Thread nD τ).loc main_arg3)) (m ((c : Thread nD τ).loc main_arg5))
      (m ((c : Thread nD τ).loc main_arg4)) (m ((c : Thread nD τ).loc main_arg6)) := by
  unfold result
  rw [Entry.agg_sd, Entry.agg_ds]

end Cert.KernelIdeal.Whole

end
-- ==== Proof.lean ====
/-
  A directed message-passing encoder: the kernel against its jnp reference, over the extended reals.

  Both programs first form two aggregates of the node features `x` (100000 nodes, 128 features) along the million
  edges: `agg_sd`, the features of every edge's source summed into its destination, and `agg_ds`, the other way round —
  a gather followed by a scatter-add into zeros, the same operations in the same order in both programs. Both then return

      ½ · ( agg_sd · W_sdᵀ + b_sd )  +  ½ · ( agg_ds · W_dsᵀ + b_ds ) .

  The reference does this with two whole matrix products on the host. The kernel transposes the weights and views the biases
  as rows on the host, then runs a grid of ten points, each of which takes 10000 rows of the two aggregates, multiplies
  them into zero accumulators, adds the bias row, mixes, and writes 10000 rows of the output.

  At the ideal values the two are one function, entry by entry (`Combine.combine`), with no law of arithmetic needed beyond
  reading each side at an index: a product accumulated into zero is the plain sum over the contracted axis, a transposed
  matrix read at `(k, j)` is the matrix at `(j, k)`, the ten blocks of rows tile the output, and the mixing weight is the
  same binary32 word on both sides. Nothing is distributed or cancelled, so the inputs' finiteness is never used.

  The modules: `Combine` states the function and the step from a block of rows to the whole; `RefCombine` reads the
  reference's last stage as that function of its own two aggregates; `BodyCombine` reads what the kernel's body stores
  at one entry of a block; `Entry` and `EntryLayout` say what the region finds in each operand's array (the aggregates as
  the reference's own stages, kept whole; the weights and biases at an index); `Blocks` goes from the ten blocks to
  the output array and states the kernel's run. The kernel's and the reference's runs themselves, and the reference's
  operations read at an index, are the generated modules imported below.
-/
import proofs.«169722_j9534827397139_1_alg».proof.Defs
import proofs.«169722_j9534827397139_1_alg».proof.Proof.Gen.Kernel
import proofs.«169722_j9534827397139_1_alg».proof.Proof.Gen.Kernel.Frame
import proofs.«169722_j9534827397139_1_alg».proof.Proof.Gen.KernelIdeal
import proofs.«169722_j9534827397139_1_alg».proof.Proof.Gen.KernelIdeal.Frame
import proofs.«169722_j9534827397139_1_alg».proof.Proof.Gen.KernelIdeal.Value
import proofs.«169722_j9534827397139_1_alg».proof.Proof.Gen.ReferenceIdeal
import proofs.«169722_j9534827397139_1_alg».proof.Proof.Gen.ReferenceIdeal.Run
import proofs.«169722_j9534827397139_1_alg».proof.Proof.Gen.ReferenceIdeal.Read
import proofs.«169722_j9534827397139_1_alg».proof.Proof.Gen.Pre_finite_inputs
import proofs.«169722_j9534827397139_1_alg».proof.Proof.Combine
import proofs.«169722_j9534827397139_1_alg».proof.Proof.RefCombine
import proofs.«169722_j9534827397139_1_alg».proof.Proof.BodyCombine
import proofs.«169722_j9534827397139_1_alg».proof.Proof.Entry
import proofs.«169722_j9534827397139_1_alg».proof.Proof.EntryLayout
import proofs.«169722_j9534827397139_1_alg».proof.Proof.Blocks
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the seven arguments the kernel ends with its output at `Whole.result` — the mixture of the
    two aggregates the region finds — and the reference with its result at the same mixture of its own two aggregates,
    which are the same terms of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6⟩ := hagree c
  show _ = Cert.KernelIdeal.Whole.result m c
  rw [(h c).1, Cert.ReferenceIdeal.Read.val_main_v34_eq, Cert.ReferenceIdeal.RefValue.result_is_combine,
    e0, e1, e2, e3, e4, e5, e6, Cert.KernelIdeal.Whole.result_eq m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
